-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x64 : Shape := ⟨4, ![8, 512, 512, 64]⟩
abbrev S_ : Shape := ⟨0, ![]⟩

class Facts : Prop where
  bcast_S_S8x512x512x64 : S_.BroadcastsInDim S8x512x512x64 (![] : Fin 0 → Fin S8x512x512x64.rank)
  reducesTo_S8x512x512x64_S_d0_1_2_3 : S8x512x512x64.ReducesTo [0, 1, 2, 3] S_
  h_S_ : 0 < S_.numel

variable [Facts]

def fn {F : FTy → Type} [FloatOps F] (main_arg0 : FVec F S8x512x512x64 .f32) : IVec S_ 1 :=
  let main_v0 : FVec F S8x512x512x64 .f32 := Host.absf main_arg0
  let main_cst : FVec F S_ .f32 := constant S_ .f32 0x7F800000#32
  let main_v1 : FVec F S8x512x512x64 .f32 := broadcastInDim S8x512x512x64 ![] bcast_S_S8x512x512x64 main_cst
  let main_v2 : IVec S8x512x512x64 1 := cmpf .olt main_v0 main_v1
  let main_c : IVec S_ 1 := constantI S_ 1 1#1
  let main_v3 : IVec S_ 1 := (fun x v => Host.reduce IntOp.andi x v reducesTo_S8x512x512x64_S_d0_1_2_3 h_S_) main_v2 main_c
  main_v3
-- ==== Kernel.lean ====
abbrev S8x512x512x64 : Shape := ⟨4, ![8, 512, 512, 64]⟩
abbrev S8x256x256x256 : Shape := ⟨4, ![8, 256, 256, 256]⟩
abbrev S1x64x128x64 : Shape := ⟨4, ![1, 64, 128, 64]⟩
abbrev S1x32x64x256 : Shape := ⟨4, ![1, 32, 64, 256]⟩
abbrev S1x2x128x64 : Shape := ⟨4, ![1, 2, 128, 64]⟩
abbrev S2x128x64 : Shape := ⟨3, ![2, 128, 64]⟩
abbrev S2x64x2x64 : Shape := ⟨4, ![2, 64, 2, 64]⟩
abbrev S1x64x1x64 : Shape := ⟨4, ![1, 64, 1, 64]⟩
abbrev S64x64 : Shape := ⟨2, ![64, 64]⟩
abbrev S64x64x1 : Shape := ⟨3, ![64, 64, 1]⟩
abbrev S64x64x4 : Shape := ⟨3, ![64, 64, 4]⟩
abbrev S64x256 : Shape := ⟨2, ![64, 256]⟩
abbrev S1x1x64x256 : Shape := ⟨4, ![1, 1, 64, 256]⟩

abbrev nBuf : Space → Nat
  | .hbm => 2
  | .vmem => 4
  | .smem => 0
  | _ => 0

abbrev bufTy : (tb : Table) → Fin (tcTables nBuf tb) → BufTy
  | .hbm, ⟨0, _⟩ => ⟨S8x512x512x64, .f32⟩
  | .hbm, ⟨1, _⟩ => ⟨S8x256x256x256, .f32⟩
  | .local _ .vmem, ⟨0, _⟩ => ⟨S1x64x128x64, .f32⟩
  | .local _ .vmem, ⟨1, _⟩ => ⟨S1x64x128x64, .f32⟩
  | .local _ .vmem, ⟨2, _⟩ => ⟨S1x32x64x256, .f32⟩
  | .local _ .vmem, ⟨3, _⟩ => ⟨S1x32x64x256, .f32⟩
  | _, _ => ⟨S8x512x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![8, 8, 4], ![false, false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 4 → Nat :=
  let c0 : Index := 0#32
  let c2_i32 : BitVec 32 := 2#32
  let c0_i32 : BitVec 32 := 0#32
  let c1_i32 : BitVec 32 := 1#32
  let arg5 : BitVec 32 := Scf.iv c0_i32 c1_i32 k0_t1
  let v1 : BitVec 32 := Scalar.muli c2_i32 arg5
  let v2 : Index := Scalar.indexCast v1
  let c0_1 : Index := 0#32
  let c0_2 : Index := 0#32
  ![0, v2.toNat, 0, 0]
def k0_off2 (k0_t1 : Fin k0_t1_loop.trips) : Fin 4 → Nat :=
  let c0_6 : Index := 0#32
  let c0_i32 : BitVec 32 := 0#32
  let c1_i32 : BitVec 32 := 1#32
  let arg5 : BitVec 32 := Scf.iv c0_i32 c1_i32 k0_t1
  let v40 : Index := Scalar.indexCast arg5
  let c0_7 : Index := 0#32
  let c0_8 : Index := 0#32
  ![0, v40.toNat, 0, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x64x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  h_S1x2x128x64 : 0 < S1x2x128x64.numel
  shapeCasts_S1x2x128x64_S2x128x64 : S1x2x128x64.ShapeCasts S2x128x64
  shapeCasts_S2x128x64_S2x64x2x64 : S2x128x64.ShapeCasts S2x64x2x64
  slices_S2x64x2x64_o0_0_0_0_S1x64x1x64 : S2x64x2x64.Slices ![0, 0, 0, 0] S1x64x1x64
  shapeCasts_S1x64x1x64_S64x64 : S1x64x1x64.ShapeCasts S64x64
  slices_S2x64x2x64_o0_0_1_0_S1x64x1x64 : S2x64x2x64.Slices ![0, 0, 1, 0] S1x64x1x64
  slices_S2x64x2x64_o1_0_0_0_S1x64x1x64 : S2x64x2x64.Slices ![1, 0, 0, 0] S1x64x1x64
  slices_S2x64x2x64_o1_0_1_0_S1x64x1x64 : S2x64x2x64.Slices ![1, 0, 1, 0] S1x64x1x64
  shapeCasts_S64x64_S64x64x1 : S64x64.ShapeCasts S64x64x1
  concatenates_S64x64x1_S64x64x1_S64x64x1_S64x64x1_S64x64x4_d2 : Shape.Concatenates [S64x64x1, S64x64x1, S64x64x1, S64x64x1] S64x64x4 2
  shapeCasts_S64x64x4_S64x256 : S64x64x4.ShapeCasts S64x256
  h_S1x1x64x256 : 0 < S1x1x64x256.numel
  shapeCasts_S1x1x64x256_S64x256 : S1x1x64x256.ShapeCasts S64x256
  shapeCasts_S64x256_S1x1x64x256 : S64x256.ShapeCasts S1x1x64x256
  hrank0 : 0 < grid0.rank
  k0_t1_ok : k0_t1_loop.OK
  k0_off1_inb : ∀ k0_t1 : Fin k0_t1_loop.trips, ∀ a, (k0_off1 k0_t1) a + S1x2x128x64.size a ≤ S1x64x128x64.size a
  k0_off2_inb : ∀ k0_t1 : Fin k0_t1_loop.trips, ∀ a, (k0_off2 k0_t1) a + S1x1x64x256.size a ≤ S1x32x64x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x64.size a ≤ S8x512x512x64.size a
  hwx0_0 : ∀ i : grid0.Coords, EltTy.bits .f32 = 32 ∨ (Rect.block (s := S8x512x512x64) S1x64x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64x256.size a ≤ S8x256x256x256.size a
  hwx0_1 : ∀ i : grid0.Coords, EltTy.bits .f32 = 32 ∨ (Rect.block (s := S8x256x256x256) S1x32x64x256.size (cc0_transform_1 i) (hinb0_1 i)).WholeWords (EltTy.packing .f32)

variable [Facts₀]

abbrev win0_0 : Pipeline.Window sig grid0 :=
  Pipeline.Window.ofSpec (Memref.whole main_arg0) S1x64x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x32x64x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x512x512x64 : Shape := ⟨4, ![8, 512, 512, 64]⟩
abbrev S8x256x2x256x2x64 : Shape := ⟨6, ![8, 256, 2, 256, 2, 64]⟩
abbrev S8x256x1x256x1x64 : Shape := ⟨6, ![8, 256, 1, 256, 1, 64]⟩
abbrev S8x256x256x64 : Shape := ⟨4, ![8, 256, 256, 64]⟩
abbrev S_ : Shape := ⟨0, ![]⟩
abbrev S8x256x256x64x1 : Shape := ⟨5, ![8, 256, 256, 64, 1]⟩
abbrev S8x256x256x64x4 : Shape := ⟨5, ![8, 256, 256, 64, 4]⟩
abbrev S8x256x256x256 : Shape := ⟨4, ![8, 256, 256, 256]⟩

abbrev nBuf : Space → Nat
  | .hbm => 40
  | .vmem => 0
  | .smem => 0
  | _ => 0

abbrev bufTy : (tb : Table) → Fin (tcTables nBuf tb) → BufTy
  | .hbm, ⟨0, _⟩ => ⟨S8x512x512x64, .f32⟩
  | .hbm, ⟨1, _⟩ => ⟨S8x256x2x256x2x64, .f32⟩
  | .hbm, ⟨2, _⟩ => ⟨S8x256x1x256x1x64, .f32⟩
  | .hbm, ⟨3, _⟩ => ⟨S8x256x256x64, .f32⟩
  | .hbm, ⟨4, _⟩ => ⟨S8x256x1x256x1x64, .f32⟩
  | .hbm, ⟨5, _⟩ => ⟨S8x256x256x64, .f32⟩
  | .hbm, ⟨6, _⟩ => ⟨S8x256x1x256x1x64, .f32⟩
  | .hbm, ⟨7, _⟩ => ⟨S8x256x256x64, .f32⟩
  | .hbm, ⟨8, _⟩ => ⟨S8x256x1x256x1x64, .f32⟩
  | .hbm, ⟨9, _⟩ => ⟨S8x256x256x64, .f32⟩
  | .hbm, ⟨10, _⟩ => ⟨S8x256x256x64, .f32⟩
  | .hbm, ⟨11, _⟩ => ⟨S8x256x256x64, .f32⟩
  | .hbm, ⟨12, _⟩ => ⟨S8x256x256x64, .f32⟩
  | .hbm, ⟨13, _⟩ => ⟨S_, .f32⟩
  | .hbm, ⟨14, _⟩ => ⟨S8x256x256x64, .f32⟩
  | .hbm, ⟨15, _⟩ => ⟨S8x256x256x64, .f32⟩
  | .hbm, ⟨16, _⟩ => ⟨S8x256x256x64, .f32⟩
  | .hbm, ⟨17, _⟩ => ⟨S8x256x256x64, .f32⟩
  | .hbm, ⟨18, _⟩ => ⟨S8x256x256x64, .f32⟩
  | .hbm, ⟨19, _⟩ => ⟨S_, .f32⟩
  | .hbm, ⟨20, _⟩ => ⟨S8x256x256x64, .f32⟩
  | .hbm, ⟨21, _⟩ => ⟨S8x256x256x64, .f32⟩
  | .hbm, ⟨22, _⟩ => ⟨S8x256x256x64, .f32⟩
  | .hbm, ⟨23, _⟩ => ⟨S8x256x256x64, .f32⟩
  | .hbm, ⟨24, _⟩ => ⟨S8x256x256x64, .f32⟩
  | .hbm, ⟨25, _⟩ => ⟨S_, .f32⟩
  | .hbm, ⟨26, _⟩ => ⟨S8x256x256x64, .f32⟩
  | .hbm, ⟨27, _⟩ => ⟨S8x256x256x64, .f32⟩
  | .hbm, ⟨28, _⟩ => ⟨S8x256x256x64, .f32⟩
  | .hbm, ⟨29, _⟩ => ⟨S8x256x256x64, .f32⟩
  | .hbm, ⟨30, _⟩ => ⟨S8x256x256x64, .f32⟩
  | .hbm, ⟨31, _⟩ => ⟨S_, .f32⟩
  | .hbm, ⟨32, _⟩ => ⟨S8x256x256x64, .f32⟩
  | .hbm, ⟨33, _⟩ => ⟨S8x256x256x64, .f32⟩
  | .hbm, ⟨34, _⟩ => ⟨S8x256x256x64x1, .f32⟩
  | .hbm, ⟨35, _⟩ => ⟨S8x256x256x64x1, .f32⟩
  | .hbm, ⟨36, _⟩ => ⟨S8x256x256x64x1, .f32⟩
  | .hbm, ⟨37, _⟩ => ⟨S8x256x256x64x1, .f32⟩
  | .hbm, ⟨38, _⟩ => ⟨S8x256x256x64x4, .f32⟩
  | .hbm, ⟨39, _⟩ => ⟨S8x256x256x256, .f32⟩
  | _, _ => ⟨S8x512x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]

class Facts₀ : Prop where
  shapeCasts_S8x512x512x64_S8x256x2x256x2x64 : S8x512x512x64.ShapeCasts S8x256x2x256x2x64
  slices_S8x256x2x256x2x64_S8x256x1x256x1x64_0_0_0_0_0_0 : S8x256x2x256x2x64.Slices ![0, 0, 0, 0, 0, 0] S8x256x1x256x1x64
  shapeCasts_S8x256x1x256x1x64_S8x256x256x64 : S8x256x1x256x1x64.ShapeCasts S8x256x256x64
  slices_S8x256x2x256x2x64_S8x256x1x256x1x64_0_0_0_0_1_0 : S8x256x2x256x2x64.Slices ![0, 0, 0, 0, 1, 0] S8x256x1x256x1x64
  slices_S8x256x2x256x2x64_S8x256x1x256x1x64_0_0_1_0_0_0 : S8x256x2x256x2x64.Slices ![0, 0, 1, 0, 0, 0] S8x256x1x256x1x64
  slices_S8x256x2x256x2x64_S8x256x1x256x1x64_0_0_1_0_1_0 : S8x256x2x256x2x64.Slices ![0, 0, 1, 0, 1, 0] S8x256x1x256x1x64
  bcast_S_S8x256x256x64 : S_.BroadcastsInDim S8x256x256x64 (![] : Fin 0 → Fin S8x256x256x64.rank)
  bcast_S8x256x256x64_S8x256x256x64x1_0_1_2_3 : S8x256x256x64.BroadcastsInDim S8x256x256x64x1 (![0, 1, 2, 3] : Fin 4 → Fin S8x256x256x64x1.rank)
  concatenates_S8x256x256x64x1_S8x256x256x64x1_S8x256x256x64x1_S8x256x256x64x1_S8x256x256x64x4_d4 : Shape.Concatenates [S8x256x256x64x1, S8x256x256x64x1, S8x256x256x64x1, S8x256x256x64x1] S8x256x256x64x4 4
  shapeCasts_S8x256x256x64x4_S8x256x256x256 : S8x256x256x64x4.ShapeCasts S8x256x256x256

variable [Facts₀]

class Facts : Prop extends Facts₀ where

variable [Facts]
-- ==== Proof.HaarSpec.lean ====
/-
  The 2x2 Haar transform, index by index, on the extended reals.

  A 2x2 block of one channel has entries  a b / c d  (a, b on the upper row). Its four components are
      q = 0 :  1/2 * (((a + b) + c) + d)        q = 1 :  1/2 * (((a + b) - c) - d)
      q = 2 :  1/2 * (((a - b) + c) - d)        q = 3 :  1/2 * (((a - b) - c) + d)
  each with its additions and subtractions in exactly this order: on the extended reals a sum is not
  re-associated, and none is here. Output position (i, w) of channel c takes the block at rows 2i, 2i+1 and
  columns 2w, 2w+1; the four components of a channel lie side by side, at output channel 4c + q.

  The same function is stated at three sizes: of two loaded rows, of one block of the input, of the whole array.
-/
import Idealize.ShloMosaic.PureOps.Ideal
import Idealize.ShloMosaic.Lib.ValueIdx

noncomputable section

namespace Haar

open Idealize.ShloMosaic Idealize.ShloMosaic.ValueIdx

/-- One half, as the single-precision word both programs write. -/
abbrev half : EReal := Ideal.ofBits .f32 0x3F000000#32

/-- Component `q` of the transform of the block  a b / c d. -/
def comb (q : Fin 4) (a b c d : EReal) : EReal :=
  ![half * (a + b + c + d), half * (a + b - c - d), half * (a - b + c - d), half * (a - b - c + d)] q

/-- The same component taken entry by entry of four arrays of one shape. -/
def combAt {ι : Type} (q : Fin 4) (A B C D : ι → EReal) : ι → EReal :=
  fun i => comb q (A i) (B i) (C i) (D i)

/-- Of two adjacent rows of 128 columns: output column `w`, channel `c`, component `q`. -/
def ofRows (v : (⟨4, ![1, 2, 128, 64]⟩ : Shape).Idx → EReal) (w c : Fin 64) (q : Fin 4) : EReal :=
  comb q (v (ix4 (0 : Fin 1) (0 : Fin 2) (⟨2 * w.val, by omega⟩ : Fin 128) c))
         (v (ix4 (0 : Fin 1) (0 : Fin 2) (⟨2 * w.val + 1, by omega⟩ : Fin 128) c))
         (v (ix4 (0 : Fin 1) (1 : Fin 2) (⟨2 * w.val, by omega⟩ : Fin 128) c))
         (v (ix4 (0 : Fin 1) (1 : Fin 2) (⟨2 * w.val + 1, by omega⟩ : Fin 128) c))

/-- Of a block of 64 rows and 128 columns: output row `i`, column `w`, channel `c`, component `q`. -/
def ofBlockAt (x : (⟨4, ![1, 64, 128, 64]⟩ : Shape).Idx → EReal) (i : Fin 32) (w c : Fin 64) (q : Fin 4) : EReal :=
  comb q (x (ix4 (0 : Fin 1) (⟨2 * i.val, by omega⟩ : Fin 64) (⟨2 * w.val, by omega⟩ : Fin 128) c))
         (x (ix4 (0 : Fin 1) (⟨2 * i.val, by omega⟩ : Fin 64) (⟨2 * w.val + 1, by omega⟩ : Fin 128) c))
         (x (ix4 (0 : Fin 1) (⟨2 * i.val + 1, by omega⟩ : Fin 64) (⟨2 * w.val, by omega⟩ : Fin 128) c))
         (x (ix4 (0 : Fin 1) (⟨2 * i.val + 1, by omega⟩ : Fin 64) (⟨2 * w.val + 1, by omega⟩ : Fin 128) c))

/-- The block's transform as one function of the output block's index: channel `k / 4`, component `k % 4`. -/
def ofBlock (x : (⟨4, ![1, 64, 128, 64]⟩ : Shape).Idx → EReal) (y : (⟨4, ![1, 32, 64, 256]⟩ : Shape).Idx) : EReal :=
  have h3 : (y 3).val < 256 := (y 3).isLt
  ofBlockAt x (y 1) (y 2) ⟨(y 3).val / 4, by omega⟩ ⟨(y 3).val % 4, by omega⟩

/-- Of the whole array: batch `b`, output row `i`, column `w`, channel `c`, component `q`. -/
def ofArrayAt (x : (⟨4, ![8, 512, 512, 64]⟩ : Shape).Idx → EReal) (b : Fin 8) (i w : Fin 256) (c : Fin 64) (q : Fin 4) : EReal :=
  comb q (x (ix4 b (⟨2 * i.val, by omega⟩ : Fin 512) (⟨2 * w.val, by omega⟩ : Fin 512) c))
         (x (ix4 b (⟨2 * i.val, by omega⟩ : Fin 512) (⟨2 * w.val + 1, by omega⟩ : Fin 512) c))
         (x (ix4 b (⟨2 * i.val + 1, by omega⟩ : Fin 512) (⟨2 * w.val, by omega⟩ : Fin 512) c))
         (x (ix4 b (⟨2 * i.val + 1, by omega⟩ : Fin 512) (⟨2 * w.val + 1, by omega⟩ : Fin 512) c))

/-- The whole transform as one function of the output array's index. -/
def ofArray (x : (⟨4, ![8, 512, 512, 64]⟩ : Shape).Idx → EReal) (j : (⟨4, ![8, 256, 256, 256]⟩ : Shape).Idx) : EReal :=
  have h3 : (j 3).val < 256 := (j 3).isLt
  ofArrayAt x (j 0) (j 1) (j 2) ⟨(j 3).val / 4, by omega⟩ ⟨(j 3).val % 4, by omega⟩

end Haar

end
-- ==== Proof.HaarLayout.lean ====
/-
  The two programs' layout operations read at an index.

  Both programs reach the four entries of a 2x2 block by splitting an axis of even extent 2n into (n, 2), cutting
  one of the two halves out, and dropping the unit axis the cut leaves; both put the four components side by side
  by giving each a trailing unit axis, joining the four along it, and merging the pair (channels, 4) into one axis.
  Every step keeps the row-major position of an element, or shifts one coordinate by a constant, so each chain read
  at an index is the source read at an index that linear arithmetic names. The kernel does this on two loaded rows,
  the reference on the whole array, with two more axes in front.
-/
import Idealize.ShloMosaic.Lib.Pipeline.Value
import Idealize.ShloMosaic.Lib.ValueIdx
import Idealize.ShloMosaic.Lib.ValueIdxRank6

noncomputable section

namespace Haar

open Idealize.ShloMosaic Idealize.ShloMosaic.ValueIdx

variable {α : Type}

/-- Four pieces of one shape, each of extent one along the joined axis: the join read at an index whose coordinate
    on that axis is `n` is piece `n`, read at the same other coordinates. -/
theorem concat4_unit_apply {t s₁ : Shape} (a : Fin t.rank) (u : Fin 4 → (s₁.Idx → α))
    (h : Shape.Concatenates [s₁, s₁, s₁, s₁] t a)
    (hr : s₁.rank = t.rank) (h1 : s₁.size (a.cast hr.symm) = 1) (j : t.Idx) (n : Fin 4) (hn : (j a).val = n.val)
    (i : s₁.Idx) (hi : ∀ b : Fin s₁.rank, b.cast hr ≠ a → (i b).val = (j (b.cast hr)).val) :
    concatenate t a [⟨s₁, u 0⟩, ⟨s₁, u 1⟩, ⟨s₁, u 2⟩, ⟨s₁, u 3⟩] h j = u n i :=
  concatenate_ofFn_unit_apply a u h hr h1 j n hn i hi

/-! ## On two loaded rows -/

/-- Entry (row `r`, parity `s`) of the 2x2 blocks of two rows: the rows split into (64, 2) columns, cut at (r, s),
    and the unit axes dropped, at (column `w`, channel `c`), is the loaded value at row `r`, column `2w + s`. -/
theorem rows_entry (v : (⟨4, ![1, 2, 128, 64]⟩ : Shape).Idx → α) (off : Fin 4 → Nat) (r s : Fin 2)
    (ho : off = ![r.val, 0, s.val, 0])
    (c1 : (⟨4, ![1, 2, 128, 64]⟩ : Shape).ShapeCasts ⟨3, ![2, 128, 64]⟩)
    (c2 : (⟨3, ![2, 128, 64]⟩ : Shape).ShapeCasts ⟨4, ![2, 64, 2, 64]⟩)
    (sl : (⟨4, ![2, 64, 2, 64]⟩ : Shape).Slices off ⟨4, ![1, 64, 1, 64]⟩)
    (c3 : (⟨4, ![1, 64, 1, 64]⟩ : Shape).ShapeCasts ⟨2, ![64, 64]⟩) (w c : Fin 64) :
    shapeCast ⟨2, ![64, 64]⟩ (extractStridedSlice ⟨4, ![1, 64, 1, 64]⟩ off
        (shapeCast ⟨4, ![2, 64, 2, 64]⟩ (shapeCast ⟨3, ![2, 128, 64]⟩ v c1) c2) sl) c3 (ix2 w c)
      = v (ix4 (0 : Fin 1) r (⟨2 * w.val + s.val, by omega⟩ : Fin 128) c) := by
  subst ho
  have hw := w.isLt; have hc := c.isLt; have hr := r.isLt; have hs := s.isLt
  refine (shapeCast_apply _ c3 (ix2 w c) (ix4 (0 : Fin 1) w (0 : Fin 1) c) ?_).trans ?_
  · rw [Shape.rowMajor_val_four, Shape.rowMajor_val_two]
    show ((0 * 64 + w.val) * 1 + 0) * 64 + c.val = w.val * 64 + c.val
    omega
  refine (extractStridedSlice_apply _ _ sl (ix4 (0 : Fin 1) w (0 : Fin 1) c) (ix4 r w s c) ?_).trans ?_
  · intro a
    match a with
    | ⟨0, _⟩ => show r.val = r.val + 0; omega
    | ⟨1, _⟩ => show w.val = 0 + w.val; omega
    | ⟨2, _⟩ => show s.val = s.val + 0; omega
    | ⟨3, _⟩ => show c.val = 0 + c.val; omega
  refine (shapeCast_apply _ c2 (ix4 r w s c) (ix3 r (⟨2 * w.val + s.val, by omega⟩ : Fin 128) c) ?_).trans ?_
  · rw [Shape.rowMajor_val_three, Shape.rowMajor_val_four]
    show (r.val * 128 + (2 * w.val + s.val)) * 64 + c.val = ((r.val * 64 + w.val) * 2 + s.val) * 64 + c.val
    omega
  refine shapeCast_apply _ c1 _ (ix4 (0 : Fin 1) r (⟨2 * w.val + s.val, by omega⟩ : Fin 128) c) ?_
  rw [Shape.rowMajor_val_four, Shape.rowMajor_val_three]
  show ((0 * 2 + r.val) * 128 + (2 * w.val + s.val)) * 64 + c.val = (r.val * 128 + (2 * w.val + s.val)) * 64 + c.val
  omega

/-- Four [64, 64] arrays given a trailing unit axis, joined along it, the pair (channels, 4) merged, and two unit
    axes put in front: at (column `w`, output channel `4c + q`) it is array `q` at (`w`, `c`). -/
theorem rows_stack (u : Fin 4 → ((⟨2, ![64, 64]⟩ : Shape).Idx → α))
    (ca : (⟨2, ![64, 64]⟩ : Shape).ShapeCasts ⟨3, ![64, 64, 1]⟩)
    (hc : Shape.Concatenates [(⟨3, ![64, 64, 1]⟩ : Shape), ⟨3, ![64, 64, 1]⟩, ⟨3, ![64, 64, 1]⟩, ⟨3, ![64, 64, 1]⟩] ⟨3, ![64, 64, 4]⟩ 2)
    (cb : (⟨3, ![64, 64, 4]⟩ : Shape).ShapeCasts ⟨2, ![64, 256]⟩)
    (cc : (⟨2, ![64, 256]⟩ : Shape).ShapeCasts ⟨4, ![1, 1, 64, 256]⟩) (w c : Fin 64) (q : Fin 4) :
    shapeCast ⟨4, ![1, 1, 64, 256]⟩ (shapeCast ⟨2, ![64, 256]⟩ (concatenate ⟨3, ![64, 64, 4]⟩ 2
        [⟨⟨3, ![64, 64, 1]⟩, shapeCast ⟨3, ![64, 64, 1]⟩ (u 0) ca⟩, ⟨⟨3, ![64, 64, 1]⟩, shapeCast ⟨3, ![64, 64, 1]⟩ (u 1) ca⟩,
         ⟨⟨3, ![64, 64, 1]⟩, shapeCast ⟨3, ![64, 64, 1]⟩ (u 2) ca⟩, ⟨⟨3, ![64, 64, 1]⟩, shapeCast ⟨3, ![64, 64, 1]⟩ (u 3) ca⟩] hc) cb) cc
        (ix4 (0 : Fin 1) (0 : Fin 1) w (⟨4 * c.val + q.val, by omega⟩ : Fin 256))
      = u q (ix2 w c) := by
  have hw := w.isLt; have hc' := c.isLt; have hq := q.isLt
  refine (shapeCast_apply _ cc _ (ix2 w (⟨4 * c.val + q.val, by omega⟩ : Fin 256)) ?_).trans ?_
  · rw [Shape.rowMajor_val_two, Shape.rowMajor_val_four]
    show w.val * 256 + (4 * c.val + q.val) = ((0 * 1 + 0) * 64 + w.val) * 256 + (4 * c.val + q.val)
    omega
  refine (shapeCast_apply _ cb _ (ix3 w c q) ?_).trans ?_
  · rw [Shape.rowMajor_val_three, Shape.rowMajor_val_two]
    show (w.val * 64 + c.val) * 4 + q.val = w.val * 256 + (4 * c.val + q.val)
    omega
  refine (concat4_unit_apply (t := ⟨3, ![64, 64, 4]⟩) (s₁ := ⟨3, ![64, 64, 1]⟩) 2 (fun n => shapeCast ⟨3, ![64, 64, 1]⟩ (u n) ca) hc rfl rfl
    (ix3 w c q) q rfl (ix3 w c (0 : Fin 1)) ?_).trans ?_
  · intro b hb
    match b with
    | ⟨0, _⟩ => rfl
    | ⟨1, _⟩ => rfl
    | ⟨2, _⟩ => exact absurd rfl hb
  refine shapeCast_apply _ ca _ (ix2 w c) ?_
  rw [Shape.rowMajor_val_two, Shape.rowMajor_val_three]
  show w.val * 64 + c.val = (w.val * 64 + c.val) * 1 + 0
  omega

/-! ## On the whole array -/

/-- Entry (row parity `r`, column parity `s`) of the 2x2 blocks of the array: rows and columns split into (256, 2),
    cut at (r, s), and the unit axes dropped, at (batch `b`, row `i`, column `w`, channel `c`), is the array at row
    `2i + r`, column `2w + s`. -/
theorem array_entry (x : (⟨4, ![8, 512, 512, 64]⟩ : Shape).Idx → α) (off : Fin 6 → Nat) (r s : Fin 2)
    (ho : off = ![0, 0, r.val, 0, s.val, 0])
    (c1 : (⟨4, ![8, 512, 512, 64]⟩ : Shape).ShapeCasts ⟨6, ![8, 256, 2, 256, 2, 64]⟩)
    (sl : (⟨6, ![8, 256, 2, 256, 2, 64]⟩ : Shape).Slices off ⟨6, ![8, 256, 1, 256, 1, 64]⟩)
    (c2 : (⟨6, ![8, 256, 1, 256, 1, 64]⟩ : Shape).ShapeCasts ⟨4, ![8, 256, 256, 64]⟩)
    (b : Fin 8) (i w : Fin 256) (c : Fin 64) :
    shapeCast ⟨4, ![8, 256, 256, 64]⟩ (extractStridedSlice ⟨6, ![8, 256, 1, 256, 1, 64]⟩ off
        (shapeCast ⟨6, ![8, 256, 2, 256, 2, 64]⟩ x c1) sl) c2 (ix4 b i w c)
      = x (ix4 b (⟨2 * i.val + r.val, by omega⟩ : Fin 512) (⟨2 * w.val + s.val, by omega⟩ : Fin 512) c) := by
  subst ho
  have hb := b.isLt; have hi := i.isLt; have hw := w.isLt; have hc := c.isLt; have hr := r.isLt; have hs := s.isLt
  refine (shapeCast_apply _ c2 (ix4 b i w c) (ix6 b i (0 : Fin 1) w (0 : Fin 1) c) ?_).trans ?_
  · rw [Shape.rowMajor_val_six, Shape.rowMajor_val_four]
    show ((((b.val * 256 + i.val) * 1 + 0) * 256 + w.val) * 1 + 0) * 64 + c.val = ((b.val * 256 + i.val) * 256 + w.val) * 64 + c.val
    omega
  refine (extractStridedSlice_apply _ _ sl (ix6 b i (0 : Fin 1) w (0 : Fin 1) c) (ix6 b i r w s c) ?_).trans ?_
  · intro a
    match a with
    | ⟨0, _⟩ => show b.val = 0 + b.val; omega
    | ⟨1, _⟩ => show i.val = 0 + i.val; omega
    | ⟨2, _⟩ => show r.val = r.val + 0; omega
    | ⟨3, _⟩ => show w.val = 0 + w.val; omega
    | ⟨4, _⟩ => show s.val = s.val + 0; omega
    | ⟨5, _⟩ => show c.val = 0 + c.val; omega
  refine shapeCast_apply _ c1 _ (ix4 b (⟨2 * i.val + r.val, by omega⟩ : Fin 512) (⟨2 * w.val + s.val, by omega⟩ : Fin 512) c) ?_
  rw [Shape.rowMajor_val_four, Shape.rowMajor_val_six]
  show ((b.val * 512 + (2 * i.val + r.val)) * 512 + (2 * w.val + s.val)) * 64 + c.val
    = ((((b.val * 256 + i.val) * 2 + r.val) * 256 + w.val) * 2 + s.val) * 64 + c.val
  omega

/-- Four arrays [8, 256, 256, 64] given a trailing unit axis, joined along it, and the pair (channels, 4) merged: at
    output channel `4c + q` it is array `q` at channel `c`. -/
theorem array_stack (u : Fin 4 → ((⟨4, ![8, 256, 256, 64]⟩ : Shape).Idx → α))
    (dims : Fin 4 → Fin 5) (hd : dims = ![0, 1, 2, 3])
    (ba : (⟨4, ![8, 256, 256, 64]⟩ : Shape).BroadcastsInDim ⟨5, ![8, 256, 256, 64, 1]⟩ dims)
    (hc : Shape.Concatenates [(⟨5, ![8, 256, 256, 64, 1]⟩ : Shape), ⟨5, ![8, 256, 256, 64, 1]⟩, ⟨5, ![8, 256, 256, 64, 1]⟩, ⟨5, ![8, 256, 256, 64, 1]⟩]
      ⟨5, ![8, 256, 256, 64, 4]⟩ 4)
    (cb : (⟨5, ![8, 256, 256, 64, 4]⟩ : Shape).ShapeCasts ⟨4, ![8, 256, 256, 256]⟩)
    (b : Fin 8) (i w : Fin 256) (c : Fin 64) (q : Fin 4) :
    shapeCast ⟨4, ![8, 256, 256, 256]⟩ (concatenate ⟨5, ![8, 256, 256, 64, 4]⟩ 4
        [⟨⟨5, ![8, 256, 256, 64, 1]⟩, broadcastInDim ⟨5, ![8, 256, 256, 64, 1]⟩ dims ba (u 0)⟩,
         ⟨⟨5, ![8, 256, 256, 64, 1]⟩, broadcastInDim ⟨5, ![8, 256, 256, 64, 1]⟩ dims ba (u 1)⟩,
         ⟨⟨5, ![8, 256, 256, 64, 1]⟩, broadcastInDim ⟨5, ![8, 256, 256, 64, 1]⟩ dims ba (u 2)⟩,
         ⟨⟨5, ![8, 256, 256, 64, 1]⟩, broadcastInDim ⟨5, ![8, 256, 256, 64, 1]⟩ dims ba (u 3)⟩] hc) cb
        (ix4 b i w (⟨4 * c.val + q.val, by omega⟩ : Fin 256))
      = u q (ix4 b i w c) := by
  subst hd
  have hb := b.isLt; have hi := i.isLt; have hw := w.isLt; have hc' := c.isLt; have hq := q.isLt
  refine (shapeCast_apply _ cb _ (ix5 b i w c q) ?_).trans ?_
  · rw [Shape.rowMajor_val_five, Shape.rowMajor_val_four]
    show (((b.val * 256 + i.val) * 256 + w.val) * 64 + c.val) * 4 + q.val = ((b.val * 256 + i.val) * 256 + w.val) * 256 + (4 * c.val + q.val)
    omega
  refine (concat4_unit_apply (t := ⟨5, ![8, 256, 256, 64, 4]⟩) (s₁ := ⟨5, ![8, 256, 256, 64, 1]⟩) 4
    (fun n => broadcastInDim ⟨5, ![8, 256, 256, 64, 1]⟩ ![0, 1, 2, 3] ba (u n)) hc rfl rfl
    (ix5 b i w c q) q rfl (ix5 b i w c (0 : Fin 1)) ?_).trans ?_
  · intro a ha
    match a with
    | ⟨0, _⟩ => rfl
    | ⟨1, _⟩ => rfl
    | ⟨2, _⟩ => rfl
    | ⟨3, _⟩ => rfl
    | ⟨4, _⟩ => exact absurd rfl ha
  refine broadcastInDim_apply _ ba (u q) _ (ix4 b i w c) ?_
  intro a
  match a with
  | ⟨0, _⟩ => show b.val = if (8 : Nat) = 1 then 0 else b.val; rw [if_neg (by decide)]
  | ⟨1, _⟩ => show i.val = if (256 : Nat) = 1 then 0 else i.val; rw [if_neg (by decide)]
  | ⟨2, _⟩ => show w.val = if (256 : Nat) = 1 then 0 else w.val; rw [if_neg (by decide)]
  | ⟨3, _⟩ => show c.val = if (64 : Nat) = 1 then 0 else c.val; rw [if_neg (by decide)]

end Haar

end
-- ==== Proof.KernelRows.lean ====
/-
  What one trip of the kernel's row loop stores, read at an index.

  A trip loads two adjacent rows of the input block, 128 columns of 64 channels. Its stored value is a [1, 1, 64, 256]
  row: at output column w and output channel 4c + q it is component q of the transform of the 2x2 block that the two
  rows hold at columns 2w, 2w + 1 of channel c. The stored value is written as four [64, 64] arrays (the entries of
  all the blocks), four pointwise combinations of them, and the layout chain that lays the four side by side.
-/
import proofs.«170310_j33887291965641_2_alg».proof.Proof.Gen.KernelIdeal.Skeleton
import proofs.«170310_j33887291965641_2_alg».proof.Proof.HaarSpec
import proofs.«170310_j33887291965641_2_alg».proof.Proof.HaarLayout

noncomputable section

namespace Cert.KernelIdeal.Rows

open Cert.KernelIdeal Cert.KernelIdeal.Gen Idealize.ShloMosaic Idealize.ShloMosaic.ValueIdx

/-- Entry (row r, column parity s) of every 2x2 block of the two loaded rows, as a [64, 64] array
    (column, channel); `off` is the cut's corner (r, 0, s, 0). -/
def entry (v3 : Vec Ideal S1x2x128x64 .f32) (off : Fin 4 → Nat) (sl : S2x64x2x64.Slices off S1x64x1x64) : FVec Ideal S64x64 .f32 :=
  shapeCast S64x64 (extractStridedSlice S1x64x1x64 off
    (shapeCast S2x64x2x64 (shapeCast S2x128x64 v3 shapeCasts_S1x2x128x64_S2x128x64) shapeCasts_S2x128x64_S2x64x2x64) sl)
    shapeCasts_S1x64x1x64_S64x64

/-- The upper-left, upper-right, lower-left and lower-right entries. -/
abbrev ea (v3 : Vec Ideal S1x2x128x64 .f32) := entry v3 ![0, 0, 0, 0] slices_S2x64x2x64_o0_0_0_0_S1x64x1x64
abbrev eb (v3 : Vec Ideal S1x2x128x64 .f32) := entry v3 ![0, 0, 1, 0] slices_S2x64x2x64_o0_0_1_0_S1x64x1x64
abbrev ec (v3 : Vec Ideal S1x2x128x64 .f32) := entry v3 ![1, 0, 0, 0] slices_S2x64x2x64_o1_0_0_0_S1x64x1x64
abbrev ed (v3 : Vec Ideal S1x2x128x64 .f32) := entry v3 ![1, 0, 1, 0] slices_S2x64x2x64_o1_0_1_0_S1x64x1x64

/-- The four components, each a pointwise combination of the four entries scaled by one half. -/
def comp (v3 : Vec Ideal S1x2x128x64 .f32) : Fin 4 → FVec Ideal S64x64 .f32 :=
  ![mulf (broadcast S64x64 (Scalar.ofBits .f32 0x3F000000#32)) (addf (addf (addf (ea v3) (eb v3)) (ec v3)) (ed v3)),
    mulf (broadcast S64x64 (Scalar.ofBits .f32 0x3F000000#32)) (subf (subf (addf (ea v3) (eb v3)) (ec v3)) (ed v3)),
    mulf (broadcast S64x64 (Scalar.ofBits .f32 0x3F000000#32)) (subf (addf (subf (ea v3) (eb v3)) (ec v3)) (ed v3)),
    mulf (broadcast S64x64 (Scalar.ofBits .f32 0x3F000000#32)) (addf (subf (subf (ea v3) (eb v3)) (ec v3)) (ed v3))]

/-- The stored value is the four components laid side by side. -/
theorem pay_eq (v3 : Vec Ideal S1x2x128x64 .f32) :
    k0_pay1 (F := Ideal) v3 = shapeCast S1x1x64x256 (shapeCast S64x256 (concatenate S64x64x4 2
      [⟨S64x64x1, shapeCast S64x64x1 (comp v3 0) shapeCasts_S64x64_S64x64x1⟩, ⟨S64x64x1, shapeCast S64x64x1 (comp v3 1) shapeCasts_S64x64_S64x64x1⟩,
       ⟨S64x64x1, shapeCast S64x64x1 (comp v3 2) shapeCasts_S64x64_S64x64x1⟩, ⟨S64x64x1, shapeCast S64x64x1 (comp v3 3) shapeCasts_S64x64_S64x64x1⟩]
      concatenates_S64x64x1_S64x64x1_S64x64x1_S64x64x1_S64x64x4_d2) shapeCasts_S64x64x4_S64x256) shapeCasts_S64x256_S1x1x64x256 := rfl

/-- Each component, entry by entry, is that component of the 2x2 block of entries. -/
theorem comp_eq (v3 : Vec Ideal S1x2x128x64 .f32) (q : Fin 4) :
    comp v3 q = Haar.combAt q (ea v3) (eb v3) (ec v3) (ed v3) := by
  fin_cases q <;> rfl

theorem ea_apply (v3 : Vec Ideal S1x2x128x64 .f32) (w c : Fin 64) :
    ea v3 (ix2 w c) = v3 (ix4 (0 : Fin 1) (0 : Fin 2) (⟨2 * w.val, by omega⟩ : Fin 128) c) :=
  Haar.rows_entry v3 ![0, 0, 0, 0] 0 0 rfl _ _ _ _ w c
theorem eb_apply (v3 : Vec Ideal S1x2x128x64 .f32) (w c : Fin 64) :
    eb v3 (ix2 w c) = v3 (ix4 (0 : Fin 1) (0 : Fin 2) (⟨2 * w.val + 1, by omega⟩ : Fin 128) c) :=
  Haar.rows_entry v3 ![0, 0, 1, 0] 0 1 rfl _ _ _ _ w c
theorem ec_apply (v3 : Vec Ideal S1x2x128x64 .f32) (w c : Fin 64) :
    ec v3 (ix2 w c) = v3 (ix4 (0 : Fin 1) (1 : Fin 2) (⟨2 * w.val, by omega⟩ : Fin 128) c) :=
  Haar.rows_entry v3 ![1, 0, 0, 0] 1 0 rfl _ _ _ _ w c
theorem ed_apply (v3 : Vec Ideal S1x2x128x64 .f32) (w c : Fin 64) :
    ed v3 (ix2 w c) = v3 (ix4 (0 : Fin 1) (1 : Fin 2) (⟨2 * w.val + 1, by omega⟩ : Fin 128) c) :=
  Haar.rows_entry v3 ![1, 0, 1, 0] 1 1 rfl _ _ _ _ w c

/-- THE TRIP'S STORED ROW at output column `w`, output channel `4c + q`: component `q` of the block at columns
    2w, 2w + 1 of channel `c` of the two loaded rows. -/
theorem pay_apply (v3 : Vec Ideal S1x2x128x64 .f32) (w c : Fin 64) (q : Fin 4) :
    k0_pay1 (F := Ideal) v3 (ix4 (0 : Fin 1) (0 : Fin 1) w (⟨4 * c.val + q.val, by omega⟩ : Fin 256)) = Haar.ofRows v3 w c q := by
  rw [pay_eq]
  refine (Haar.rows_stack (comp v3) shapeCasts_S64x64_S64x64x1 concatenates_S64x64x1_S64x64x1_S64x64x1_S64x64x1_S64x64x4_d2
    shapeCasts_S64x64x4_S64x256 shapeCasts_S64x256_S1x1x64x256 w c q).trans ?_
  rw [comp_eq]
  show Haar.comb q (ea v3 (ix2 w c)) (eb v3 (ix2 w c)) (ec v3 (ix2 w c)) (ed v3 (ix2 w c)) = _
  rw [ea_apply, eb_apply, ec_apply, ed_apply]
  rfl

end Cert.KernelIdeal.Rows

end
-- ==== Proof.KernelBlock.lean ====
/-
  What the kernel leaves in its output block at one grid point.

  The body's loop makes 32 trips. Trip k loads rows 2k, 2k + 1 of the input block and stores one row, row k, of the
  output block: the transform of those two rows. So every store, at its own index, is the block's transform
  `Haar.ofBlock` of the input block read at the place in the output block that the index names; the 32 rows tile the
  output block; hence the block the loop leaves is `Haar.ofBlock` of the input block, whatever the buffer held before.
-/
import proofs.«170310_j33887291965641_2_alg».proof.Proof.Gen.KernelIdeal.Frame
import proofs.«170310_j33887291965641_2_alg».proof.Proof.KernelRows

set_option maxRecDepth 16384

noncomputable section

namespace Cert.KernelIdeal.Block

open Cert.KernelIdeal Cert.KernelIdeal.Gen
open Idealize.ShloMosaic Idealize.ShloMosaic.TcCoe Idealize.ShloMosaic.ValueIdx
open Idealize.SL Idealize.SL.Sem

/-- Trip `k`'s one store: at row `k` of the output block, of the stored value of the two rows loaded at row `2k`. -/
theorem trip_piece (𝒱 : Variants) (c : Dev nD) (bd : Option 𝒱.V) (i : grid0.Coords)
    (arg3 : Memref sig .tc .vmem S1x64x128x64 .f32) (harg3 : arg3.IsWhole) (arg4 : Memref sig .tc .vmem S1x32x64x256 .f32) (harg4 : arg4.IsWhole)
    (X : BufTy.Contents (Elt Ideal) arg3.view.ty) (k : Fin k0_t1_loop.trips) :
    tripL_k0_t1 (F := Ideal) 𝒱 c bd i arg3 harg3 arg4 harg4 X k
      = [⟨Rect.unit (s := S1x32x64x256) (k0_off2 k) S1x1x64x256.size (k0_off2_inb k),
          k0_pay1 (View.readAt (Elt Ideal) arg3.view (Rect.unit (s := S1x64x128x64) (k0_off1 k) S1x2x128x64.size (k0_off1_inb k)).toLoadRect X)⟩] := by
  unfold tripL_k0_t1 trip_k0_t1
  rfl

/-- The whole run's stores: those of the 32 trips, from the input block's contents. -/
theorem run_pieces (c : Dev nD) (i : grid0.Coords)
    (arg3 : Memref sig .tc .vmem S1x64x128x64 .f32) (harg3 : arg3.IsWhole) (arg4 : Memref sig .tc .vmem S1x32x64x256 .f32) (harg4 : arg4.IsWhole)
    (x0 : Vec Ideal S1x64x128x64 .f32) :
    (kernelRun0_A (F := Ideal) c i arg3 harg3 arg4 harg4 x0).1
      = pb_k0_t1 (F := Ideal) Variants.none c none i arg3 harg3 arg4 harg4 (harg3.unread x0) k0_t1_loop.trips := by
  unfold kernelRun0_A
  rfl

/-- The two rows trip `k` loads are rows `2k`, `2k + 1` of the input block. -/
theorem loaded_rows (arg3 : Memref sig .tc .vmem S1x64x128x64 .f32) (harg3 : arg3.IsWhole) (x0 : Vec Ideal S1x64x128x64 .f32)
    (k : Fin k0_t1_loop.trips) (hk : k.val < 32) (r : Fin 2) (z : Fin 128) (c : Fin 64) :
    View.readAt (Elt Ideal) arg3.view (Rect.unit (s := S1x64x128x64) (k0_off1 k) S1x2x128x64.size (k0_off1_inb k)).toLoadRect (harg3.unread x0)
        (ix4 (0 : Fin 1) r z c)
      = x0 (ix4 (0 : Fin 1) (⟨2 * k.val + r.val, by have := r.isLt; omega⟩ : Fin 64) z c) := by
  rw [View.readAt_eq_ld, harg3.read_unread]
  show x0 ((Rect.unit (s := S1x64x128x64) (k0_off1 k) S1x2x128x64.size (k0_off1_inb k)).idx (ix4 (0 : Fin 1) r z c)) = _
  refine congrArg x0 (funext fun a => Fin.ext ?_)
  match a with
  | ⟨0, _⟩ => show k0_off1 k 0 + 1 * 0 = 0; rw [k0_off1_eq]; rfl
  | ⟨1, _⟩ => show k0_off1 k 1 + 1 * r.val = 2 * k.val + r.val; rw [k0_off1_eq]; show 2 * k.val + 1 * r.val = 2 * k.val + r.val; omega
  | ⟨2, _⟩ => show k0_off1 k 2 + 1 * z.val = z.val; rw [k0_off1_eq]; show 0 + 1 * z.val = z.val; omega
  | ⟨3, _⟩ => show k0_off1 k 3 + 1 * c.val = c.val; rw [k0_off1_eq]; show 0 + 1 * c.val = c.val; omega

/-- The transform of rows `2k`, `2k + 1` of a block is row `k` of the block's transform. -/
theorem ofRows_eq_ofBlockAt (x0 : Vec Ideal S1x64x128x64 .f32) (k : Fin 32) (V : Vec Ideal S1x2x128x64 .f32)
    (hV : ∀ (r : Fin 2) (z : Fin 128) (c : Fin 64),
      V (ix4 (0 : Fin 1) r z c) = x0 (ix4 (0 : Fin 1) (⟨2 * k.val + r.val, by have := r.isLt; omega⟩ : Fin 64) z c))
    (w c : Fin 64) (q : Fin 4) : Haar.ofRows V w c q = Haar.ofBlockAt x0 k w c q := by
  unfold Haar.ofRows Haar.ofBlockAt
  rw [hV, hV, hV, hV]
  rfl

/-- The block's transform depends on its coordinates only through their values. -/
theorem ofBlockAt_congr (x0 : Vec Ideal S1x64x128x64 .f32) {i i' : Fin 32} {w w' c c' : Fin 64} {q q' : Fin 4}
    (hi : i.val = i'.val) (hw : w.val = w'.val) (hc : c.val = c'.val) (hq : q.val = q'.val) :
    Haar.ofBlockAt x0 i w c q = Haar.ofBlockAt x0 i' w' c' q' := by
  obtain rfl := Fin.ext hi; obtain rfl := Fin.ext hw; obtain rfl := Fin.ext hc; obtain rfl := Fin.ext hq; rfl

/-- Trip `k`'s store restricts the block's transform: at column `w`, output channel `4c + q`. -/
theorem piece_value_at (arg3 : Memref sig .tc .vmem S1x64x128x64 .f32) (harg3 : arg3.IsWhole) (x0 : Vec Ideal S1x64x128x64 .f32)
    (k : Fin k0_t1_loop.trips) (w c : Fin 64) (q : Fin 4) :
    k0_pay1 (F := Ideal) (View.readAt (Elt Ideal) arg3.view (Rect.unit (s := S1x64x128x64) (k0_off1 k) S1x2x128x64.size (k0_off1_inb k)).toLoadRect (harg3.unread x0))
        (ix4 (0 : Fin 1) (0 : Fin 1) w (⟨4 * c.val + q.val, by omega⟩ : Fin 256))
      = Haar.ofBlock x0 ((Rect.unit (s := S1x32x64x256) (k0_off2 k) S1x1x64x256.size (k0_off2_inb k)).emb
          (ix4 (0 : Fin 1) (0 : Fin 1) w (⟨4 * c.val + q.val, by omega⟩ : Fin 256))) := by
  have hk : k.val < 32 := Nat.lt_of_lt_of_le k.isLt k0_t1_abs.2.1
  have hw := w.isLt; have hc := c.isLt; have hq := q.isLt
  rw [Rows.pay_apply, ofRows_eq_ofBlockAt x0 ⟨k.val, hk⟩ _ (loaded_rows arg3 harg3 x0 k hk)]
  unfold Haar.ofBlock
  refine ofBlockAt_congr x0 ?_ ?_ ?_ ?_
  · show k.val = k0_off2 k 1 + 1 * 0; rw [k0_off2_eq]; show k.val = k.val + 1 * 0; omega
  · show w.val = k0_off2 k 2 + 1 * w.val; rw [k0_off2_eq]; show w.val = 0 + 1 * w.val; omega
  · show c.val = (k0_off2 k 3 + 1 * (4 * c.val + q.val)) / 4; rw [k0_off2_eq]; show c.val = (0 + 1 * (4 * c.val + q.val)) / 4; omega
  · show q.val = (k0_off2 k 3 + 1 * (4 * c.val + q.val)) % 4; rw [k0_off2_eq]; show q.val = (0 + 1 * (4 * c.val + q.val)) % 4; omega

/-- … and so at every index of the stored row. -/
theorem piece_value (arg3 : Memref sig .tc .vmem S1x64x128x64 .f32) (harg3 : arg3.IsWhole) (x0 : Vec Ideal S1x64x128x64 .f32)
    (k : Fin k0_t1_loop.trips) (x : S1x1x64x256.Idx) :
    k0_pay1 (F := Ideal) (View.readAt (Elt Ideal) arg3.view (Rect.unit (s := S1x64x128x64) (k0_off1 k) S1x2x128x64.size (k0_off1_inb k)).toLoadRect (harg3.unread x0)) x
      = Haar.ofBlock x0 ((Rect.unit (s := S1x32x64x256) (k0_off2 k) S1x1x64x256.size (k0_off2_inb k)).emb x) := by
  have h0 : (x 0).val < 1 := (x 0).isLt
  have h1 : (x 1).val < 1 := (x 1).isLt
  have h2 : (x 2).val < 64 := (x 2).isLt
  have h3 : (x 3).val < 256 := (x 3).isLt
  have ex : x = ix4 (0 : Fin 1) (0 : Fin 1) (⟨(x 2).val, h2⟩ : Fin 64)
      (⟨4 * (⟨(x 3).val / 4, by omega⟩ : Fin 64).val + (⟨(x 3).val % 4, by omega⟩ : Fin 4).val, by show 4 * ((x 3).val / 4) + (x 3).val % 4 < 256; omega⟩ : Fin 256) := by
    funext a; apply Fin.ext
    match a with
    | ⟨0, _⟩ => show (x 0).val = 0; omega
    | ⟨1, _⟩ => show (x 1).val = 0; omega
    | ⟨2, _⟩ => rfl
    | ⟨3, _⟩ => show (x 3).val = 4 * ((x 3).val / 4) + (x 3).val % 4; omega
  rw [ex]
  exact piece_value_at arg3 harg3 x0 k _ _ _

/-- Every store of the trips before `n` restricts the block's transform. -/
theorem pieces_restrict (c : Dev nD) (i : grid0.Coords)
    (arg3 : Memref sig .tc .vmem S1x64x128x64 .f32) (harg3 : arg3.IsWhole) (arg4 : Memref sig .tc .vmem S1x32x64x256 .f32) (harg4 : arg4.IsWhole)
    (x0 : Vec Ideal S1x64x128x64 .f32) :
    ∀ n : ℕ, ∀ p ∈ pb_k0_t1 (F := Ideal) Variants.none c none i arg3 harg3 arg4 harg4 (harg3.unread x0) n,
      ∀ x : p.1.shape.Idx, p.2 x = Haar.ofBlock x0 (p.1.emb x)
  | 0 => by
    intro p hp
    rw [pb_k0_t1.eq_1] at hp
    exact absurd hp List.not_mem_nil
  | n + 1 => by
    intro p hp
    rw [pb_k0_t1.eq_2] at hp
    unfold pb_k0_t1Step at hp
    split at hp
    · rename_i h
      rcases List.mem_append.mp hp with hp | hp
      · rw [trip_piece] at hp
        obtain rfl := List.mem_singleton.mp hp
        intro x
        exact piece_value arg3 harg3 x0 ⟨n, h⟩ x
      · exact pieces_restrict c i arg3 harg3 arg4 harg4 x0 n p hp
    · exact pieces_restrict c i arg3 harg3 arg4 harg4 x0 n p hp

/-- THE OUTPUT BLOCK after the body: the transform of the input block. -/
theorem block_value (c : Dev nD) (i : grid0.Coords)
    (arg3 : Memref sig .tc .vmem S1x64x128x64 .f32) (harg3 : arg3.IsWhole) (arg4 : Memref sig .tc .vmem S1x32x64x256 .f32) (harg4 : arg4.IsWhole)
    (x0 : Vec Ideal S1x64x128x64 .f32) :
    out0_A_1 (F := Ideal) c i arg3 harg3 arg4 harg4 x0 = Haar.ofBlock x0 := by
  unfold out0_A_1
  rw [View.read_writes_eq_canon _ _ _ (cover0_A_1 c i arg3 harg3 arg4 harg4 x0)]
  funext y
  refine View.canon_apply_of_pieces (Haar.ofBlock x0) _ ?_ y (cover0_A_1 c i arg3 harg3 arg4 harg4 x0 y)
  rw [run_pieces]
  exact pieces_restrict c i arg3 harg3 arg4 harg4 x0 _

end Cert.KernelIdeal.Block

end
-- ==== Proof.HaarTiles.lean ====
/-
  The transform of the array, tile by tile.

  Cut the input into tiles of 64 rows and 128 columns and the output into tiles of 32 rows and 64 columns, tile
  (p₀, p₁, p₂) of each at batch p₀. The 2x2 blocks never straddle a tile's edge (64 and 128 are even), so the
  transform of an input tile is the matching output tile of the array's transform: row i of the output tile is row
  32 p₁ + i of the output, and rows 2i, 2i + 1 of the input tile are rows 2 (32 p₁ + i), 2 (32 p₁ + i) + 1 of the input.
-/
import proofs.«170310_j33887291965641_2_alg».proof.Proof.HaarSpec

noncomputable section

namespace Haar

open Idealize.ShloMosaic Idealize.ShloMosaic.ValueIdx

/-- The array's transform depends on its coordinates only through their values. -/
theorem ofArrayAt_congr (x : (⟨4, ![8, 512, 512, 64]⟩ : Shape).Idx → EReal) {b b' : Fin 8} {i i' w w' : Fin 256} {c c' : Fin 64} {q q' : Fin 4}
    (hb : b.val = b'.val) (hi : i.val = i'.val) (hw : w.val = w'.val) (hc : c.val = c'.val) (hq : q.val = q'.val) :
    ofArrayAt x b i w c q = ofArrayAt x b' i' w' c' q' := by
  obtain rfl := Fin.ext hb; obtain rfl := Fin.ext hi; obtain rfl := Fin.ext hw; obtain rfl := Fin.ext hc; obtain rfl := Fin.ext hq; rfl

/-- An input tile's transform is the matching output tile of the array's transform. -/
theorem ofBlockAt_eq_ofArrayAt (X : (⟨4, ![8, 512, 512, 64]⟩ : Shape).Idx → EReal) (x0 : (⟨4, ![1, 64, 128, 64]⟩ : Shape).Idx → EReal)
    (p0 p1 p2 : Nat) (hp0 : p0 < 8) (hp1 : p1 < 8) (hp2 : p2 < 4)
    (hx : ∀ (z1 : Fin 64) (z2 : Fin 128) (ch : Fin 64),
      x0 (ix4 (0 : Fin 1) z1 z2 ch)
        = X (ix4 (⟨p0, hp0⟩ : Fin 8) (⟨p1 * 64 + z1.val, by omega⟩ : Fin 512) (⟨p2 * 128 + z2.val, by omega⟩ : Fin 512) ch))
    (i : Fin 32) (w ch : Fin 64) (q : Fin 4) :
    ofBlockAt x0 i w ch q
      = ofArrayAt X (⟨p0, hp0⟩ : Fin 8) (⟨p1 * 32 + i.val, by omega⟩ : Fin 256) (⟨p2 * 64 + w.val, by omega⟩ : Fin 256) ch q := by
  have hi := i.isLt; have hw := w.isLt
  unfold ofBlockAt ofArrayAt
  rw [hx, hx, hx, hx]
  have key : ∀ (r s : Nat) (hr : r < 2) (hs : s < 2),
      X (ix4 (⟨p0, hp0⟩ : Fin 8) (⟨p1 * 64 + (2 * i.val + r), by omega⟩ : Fin 512) (⟨p2 * 128 + (2 * w.val + s), by omega⟩ : Fin 512) ch)
        = X (ix4 (⟨p0, hp0⟩ : Fin 8) (⟨2 * (p1 * 32 + i.val) + r, by omega⟩ : Fin 512) (⟨2 * (p2 * 64 + w.val) + s, by omega⟩ : Fin 512) ch) := by
    intro r s hr hs
    refine congrArg X (funext fun a => Fin.ext ?_)
    match a with
    | ⟨0, _⟩ => rfl
    | ⟨1, _⟩ => show p1 * 64 + (2 * i.val + r) = 2 * (p1 * 32 + i.val) + r; omega
    | ⟨2, _⟩ => show p2 * 128 + (2 * w.val + s) = 2 * (p2 * 64 + w.val) + s; omega
    | ⟨3, _⟩ => rfl
  exact congr (congr (congr (congrArg (comb q) (key 0 0 (by omega) (by omega))) (key 0 1 (by omega) (by omega)))
    (key 1 0 (by omega) (by omega))) (key 1 1 (by omega) (by omega))

end Haar

end
-- ==== Proof.KernelArray.lean ====
/-
  The kernel's output array after the whole grid.

  The grid has 8 x 8 x 4 points, run in row-major order: point t is (t / 32 mod 8, t / 4 mod 8, t mod 4) = (p₀, p₁, p₂).
  There the kernel reads the input tile at batch p₀, rows 64 p₁ .. 64 p₁ + 63, columns 128 p₂ .. 128 p₂ + 127, and writes
  back the output tile at batch p₀, rows 32 p₁ .. 32 p₁ + 31, columns 64 p₂ .. 64 p₂ + 63 (all 256 channels). What it
  writes is the input tile's transform, which is that output tile of the array's transform; the output tiles cover the
  output array; so the array ends as the transform of the argument.
-/
import proofs.«170310_j33887291965641_2_alg».proof.Proof.Gen.KernelIdeal.Value
import proofs.«170310_j33887291965641_2_alg».proof.Proof.KernelBlock
import proofs.«170310_j33887291965641_2_alg».proof.Proof.HaarTiles

set_option maxRecDepth 16384

noncomputable section

namespace Cert.KernelIdeal.Array

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The two windows' tile indices at point `t`, as the grid's order gives them. -/
theorem idx_facts : ∀ t : Fin cfg0.N,
    win0_1.index t (0 : Fin 4) = t.val / 32 % 8 ∧ win0_1.index t (1 : Fin 4) = t.val / 4 % 8
    ∧ win0_1.index t (2 : Fin 4) = t.val % 4 ∧ win0_1.index t (3 : Fin 4) = 0
    ∧ win0_0.index t (0 : Fin 4) = t.val / 32 % 8 ∧ win0_0.index t (1 : Fin 4) = t.val / 4 % 8
    ∧ win0_0.index t (2 : Fin 4) = t.val % 4 ∧ win0_0.index t (3 : Fin 4) = 0 :=
  (by decide +kernel : ∀ t : Fin grid0.N, _)

/-- The input tile at point `t`, entry by entry, in the argument array. -/
theorem iblk_apply (c : Dev nD) (t : Fin cfg0.N) (z1 : Fin 64) (z2 : Fin 128) (ch : Fin 64) :
    (iblk m c 0 t : Vec Ideal S1x64x128x64 .f32) (ix4 (0 : Fin 1) z1 z2 ch)
      = (V m c main_arg0 : S8x512x512x64.Idx → EReal)
          (ix4 (⟨t.val / 32 % 8, by omega⟩ : Fin 8) (⟨t.val / 4 % 8 * 64 + z1.val, by omega⟩ : Fin 512)
            (⟨t.val % 4 * 128 + z2.val, by omega⟩ : Fin 512) ch) := by
  obtain ⟨-, -, -, -, e0, e1, e2, e3⟩ := idx_facts t
  show V m c main_arg0 (((cfg0.win 0).blk t).view.emb (ix4 (0 : Fin 1) z1 z2 ch)) = V m c main_arg0 _
  refine congrArg (V m c main_arg0) (funext fun a => Fin.ext ?_)
  match a with
  | ⟨0, _⟩ => show win0_0.index t (0 : Fin 4) * 1 + 1 * 0 = t.val / 32 % 8; omega
  | ⟨1, _⟩ => show win0_0.index t (1 : Fin 4) * 64 + 1 * z1.val = t.val / 4 % 8 * 64 + z1.val; omega
  | ⟨2, _⟩ => show win0_0.index t (2 : Fin 4) * 128 + 1 * z2.val = t.val % 4 * 128 + z2.val; omega
  | ⟨3, _⟩ => show win0_0.index t (3 : Fin 4) * 64 + 1 * ch.val = ch.val; omega

/-- WHAT POINT `t` WRITES BACK is tile `t` of the transform of the argument array. -/
theorem flushed_eq (c : Dev nD) (t : Fin cfg0.N) :
    (dats m 0 c).flushed 1 t = ((cfg0.win 1).blk t).view.read (Elt Ideal) (Haar.ofArray (V m c main_arg0)) := by
  rw [Value.flushed1_A, Block.block_value]
  obtain ⟨e0, e1, e2, e3, -, -, -, -⟩ := idx_facts t
  funext y
  have h0 : (y 0).val < 1 := (y 0).isLt
  have h1 : (y 1).val < 32 := (y 1).isLt
  have h2 : (y 2).val < 64 := (y 2).isLt
  have h3 : (y 3).val < 256 := (y 3).isLt
  show Haar.ofBlock (iblk m c 0 t) ((cfg0.win 1).xinj (grid0.coords t) y)
    = Haar.ofArray (V m c main_arg0) (((cfg0.win 1).blk t).view.emb y)
  unfold Haar.ofBlock Haar.ofArray
  refine (Haar.ofBlockAt_eq_ofArrayAt (V m c main_arg0) (iblk m c 0 t) (t.val / 32 % 8) (t.val / 4 % 8) (t.val % 4)
    (by omega) (by omega) (by omega) (iblk_apply m c t) _ _ _ _).trans ?_
  refine Haar.ofArrayAt_congr _ ?_ ?_ ?_ ?_ ?_
  · show t.val / 32 % 8 = win0_1.index t (0 : Fin 4) * 1 + 1 * (y 0).val; omega
  · show t.val / 4 % 8 * 32 + (y 1).val = win0_1.index t (1 : Fin 4) * 32 + 1 * (y 1).val; omega
  · show t.val % 4 * 64 + (y 2).val = win0_1.index t (2 : Fin 4) * 64 + 1 * (y 2).val; omega
  · show (y 3).val / 4 = (win0_1.index t (3 : Fin 4) * 256 + 1 * (y 3).val) / 4; omega
  · show (y 3).val % 4 = (win0_1.index t (3 : Fin 4) * 256 + 1 * (y 3).val) % 4; omega

/-- An index of the output array is in point `t`'s tile iff each coordinate is in the tile's range on its axis. -/
theorem mem_blk (t : Fin cfg0.N) (i : S8x256x256x256.Idx) :
    i ∈ ((cfg0.win 1).blk t).view.set ↔ ∀ a : Fin 4, win0_1.index t a * S1x32x64x256.size a ≤ (i a).val
      ∧ (i a).val < win0_1.index t a * S1x32x64x256.size a + S1x32x64x256.size a := by
  show i ∈ ((View.whole main_v0).slice (win0_1.rect t)).set ↔ _
  rw [View.set_slice_whole, Rect.mem_set_unit]
  exact Iff.rfl

/-- The output tiles cover the output array: index (b, i, w, k) lies in the tile of point (b, i / 32, w / 64). -/
theorem cover (i : S8x256x256x256.Idx) :
    ∃ t : Fin cfg0.N, (cfg0.win 1).flush t = true ∧ i ∈ ((cfg0.win 1).blk t).view.set := by
  have h0 : (i 0).val < 8 := (i 0).isLt
  have h1 : (i 1).val < 256 := (i 1).isLt
  have h2 : (i 2).val < 256 := (i 2).isLt
  have h3 : (i 3).val < 256 := (i 3).isLt
  have hN : cfg0.N = 256 := N_0
  obtain ⟨t, tv⟩ : ∃ t : Fin cfg0.N, t.val = ((i 0).val * 8 + (i 1).val / 32) * 4 + (i 2).val / 64 :=
    ⟨⟨((i 0).val * 8 + (i 1).val / 32) * 4 + (i 2).val / 64, by rw [hN]; omega⟩, rfl⟩
  refine ⟨t, flush0_1 t, ?_⟩
  obtain ⟨e0, e1, e2, e3, -, -, -, -⟩ := idx_facts t
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 32 ≤ (i 1).val ∧ (i 1).val < win0_1.index t (1 : Fin 4) * 32 + 32; omega
  | ⟨2, _⟩ => show win0_1.index t (2 : Fin 4) * 64 ≤ (i 2).val ∧ (i 2).val < win0_1.index t (2 : Fin 4) * 64 + 64; omega
  | ⟨3, _⟩ => show win0_1.index t (3 : Fin 4) * 256 ≤ (i 3).val ∧ (i 3).val < win0_1.index t (3 : Fin 4) * 256 + 256; omega

/-- THE OUTPUT ARRAY after the run: the transform of the argument array. -/
theorem final (c : Dev nD) :
    (dats m 0 c).arrAt 1 cfg0.N = Haar.ofArray (m ((c : Thread nD τ).loc main_arg0)) :=
  (dats m 0 c).arrAt_eq_of_cover 1 (Haar.ofArray (V m c main_arg0)) (fun t _ => flushed_eq m c t) cover

/-- The kernel's run, read: the result is the transform of the argument, the argument unchanged. -/
theorem run : θ_run defs (onTc (τ := τ) (main (F := Ideal))) ⟨m, fun _ => 0, ρ⟩ fun r => ∀ c : Dev nD,
      r.2.mem ((c : Thread nD τ).loc main_v0) = Haar.ofArray (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Array

end
-- ==== Proof.RefValue.lean ====
/-
  The reference's result, read at an index.

  The reference splits rows and columns of the whole array into (256, 2), cuts out the four entries of all the 2x2
  blocks as four arrays [8, 256, 256, 64], combines them pointwise into the four components, and lays the components
  side by side along the channel axis. At batch b, row i, column w and output channel 4c + q its result is component
  q of the block at rows 2i, 2i + 1 and columns 2w, 2w + 1 of channel c: `Haar.ofArray` of the argument.
-/
import proofs.«170310_j33887291965641_2_alg».proof.Proof.Gen.ReferenceIdeal.Read
import proofs.«170310_j33887291965641_2_alg».proof.Proof.HaarSpec
import proofs.«170310_j33887291965641_2_alg».proof.Proof.HaarLayout
import proofs.«170310_j33887291965641_2_alg».proof.Proof.HaarTiles

noncomputable section

namespace Cert.ReferenceIdeal.RefValue

open Cert.ReferenceIdeal Cert.ReferenceIdeal.Gen Cert.ReferenceIdeal.Read Idealize.ShloMosaic Idealize.ShloMosaic.ValueIdx

/-- Entry (row parity r, column parity s) of every 2x2 block of the array; `off` is the cut's corner
    (0, 0, r, 0, s, 0). -/
def entry (x : (⟨S8x512x512x64, .f32⟩ : BufTy).Contents (Elt Ideal)) (off : Fin 6 → Nat) (sl : S8x256x2x256x2x64.Slices off S8x256x1x256x1x64) :
    FVec Ideal S8x256x256x64 .f32 :=
  shapeCast S8x256x256x64 (extractStridedSlice S8x256x1x256x1x64 off
    (shapeCast S8x256x2x256x2x64 x shapeCasts_S8x512x512x64_S8x256x2x256x2x64) sl) shapeCasts_S8x256x1x256x1x64_S8x256x256x64

/-- The upper-left, upper-right, lower-left and lower-right entries. -/
abbrev ea (x : (⟨S8x512x512x64, .f32⟩ : BufTy).Contents (Elt Ideal)) := entry x ![0, 0, 0, 0, 0, 0] slices_S8x256x2x256x2x64_S8x256x1x256x1x64_0_0_0_0_0_0
abbrev eb (x : (⟨S8x512x512x64, .f32⟩ : BufTy).Contents (Elt Ideal)) := entry x ![0, 0, 0, 0, 1, 0] slices_S8x256x2x256x2x64_S8x256x1x256x1x64_0_0_0_0_1_0
abbrev ec (x : (⟨S8x512x512x64, .f32⟩ : BufTy).Contents (Elt Ideal)) := entry x ![0, 0, 1, 0, 0, 0] slices_S8x256x2x256x2x64_S8x256x1x256x1x64_0_0_1_0_0_0
abbrev ed (x : (⟨S8x512x512x64, .f32⟩ : BufTy).Contents (Elt Ideal)) := entry x ![0, 0, 1, 0, 1, 0] slices_S8x256x2x256x2x64_S8x256x1x256x1x64_0_0_1_0_1_0

/-- One half at every index. -/
abbrev halves : FVec Ideal S8x256x256x64 .f32 :=
  broadcastInDim S8x256x256x64 ![] bcast_S_S8x256x256x64 (constant (F := Ideal) S_ .f32 0x3F000000#32)

/-- The four components, each a pointwise combination of the four entries scaled by one half. -/
def comp (x : (⟨S8x512x512x64, .f32⟩ : BufTy).Contents (Elt Ideal)) : Fin 4 → FVec Ideal S8x256x256x64 .f32 :=
  ![mulf halves (addf (addf (addf (ea x) (eb x)) (ec x)) (ed x)),
    mulf halves (subf (subf (addf (ea x) (eb x)) (ec x)) (ed x)),
    mulf halves (subf (addf (subf (ea x) (eb x)) (ec x)) (ed x)),
    mulf halves (addf (subf (subf (ea x) (eb x)) (ec x)) (ed x))]

/-- The reference's result is the four components laid side by side. -/
theorem val_eq (x : (⟨S8x512x512x64, .f32⟩ : BufTy).Contents (Elt Ideal)) :
    val_main_v34 (F := Ideal) x = shapeCast S8x256x256x256 (concatenate S8x256x256x64x4 4
      [⟨S8x256x256x64x1, broadcastInDim S8x256x256x64x1 ![0, 1, 2, 3] bcast_S8x256x256x64_S8x256x256x64x1_0_1_2_3 (comp x 0)⟩,
       ⟨S8x256x256x64x1, broadcastInDim S8x256x256x64x1 ![0, 1, 2, 3] bcast_S8x256x256x64_S8x256x256x64x1_0_1_2_3 (comp x 1)⟩,
       ⟨S8x256x256x64x1, broadcastInDim S8x256x256x64x1 ![0, 1, 2, 3] bcast_S8x256x256x64_S8x256x256x64x1_0_1_2_3 (comp x 2)⟩,
       ⟨S8x256x256x64x1, broadcastInDim S8x256x256x64x1 ![0, 1, 2, 3] bcast_S8x256x256x64_S8x256x256x64x1_0_1_2_3 (comp x 3)⟩]
      concatenates_S8x256x256x64x1_S8x256x256x64x1_S8x256x256x64x1_S8x256x256x64x1_S8x256x256x64x4_d4)
      shapeCasts_S8x256x256x64x4_S8x256x256x256 := rfl

/-- Each component, entry by entry, is that component of the 2x2 block of entries. -/
theorem comp_eq (x : (⟨S8x512x512x64, .f32⟩ : BufTy).Contents (Elt Ideal)) (q : Fin 4) :
    comp x q = Haar.combAt q (ea x) (eb x) (ec x) (ed x) := by
  fin_cases q <;> rfl

theorem ea_apply (x : (⟨S8x512x512x64, .f32⟩ : BufTy).Contents (Elt Ideal)) (b : Fin 8) (i w : Fin 256) (c : Fin 64) :
    ea x (ix4 b i w c) = x (ix4 b (⟨2 * i.val, by omega⟩ : Fin 512) (⟨2 * w.val, by omega⟩ : Fin 512) c) :=
  Haar.array_entry x ![0, 0, 0, 0, 0, 0] 0 0 rfl _ _ _ b i w c
theorem eb_apply (x : (⟨S8x512x512x64, .f32⟩ : BufTy).Contents (Elt Ideal)) (b : Fin 8) (i w : Fin 256) (c : Fin 64) :
    eb x (ix4 b i w c) = x (ix4 b (⟨2 * i.val, by omega⟩ : Fin 512) (⟨2 * w.val + 1, by omega⟩ : Fin 512) c) :=
  Haar.array_entry x ![0, 0, 0, 0, 1, 0] 0 1 rfl _ _ _ b i w c
theorem ec_apply (x : (⟨S8x512x512x64, .f32⟩ : BufTy).Contents (Elt Ideal)) (b : Fin 8) (i w : Fin 256) (c : Fin 64) :
    ec x (ix4 b i w c) = x (ix4 b (⟨2 * i.val + 1, by omega⟩ : Fin 512) (⟨2 * w.val, by omega⟩ : Fin 512) c) :=
  Haar.array_entry x ![0, 0, 1, 0, 0, 0] 1 0 rfl _ _ _ b i w c
theorem ed_apply (x : (⟨S8x512x512x64, .f32⟩ : BufTy).Contents (Elt Ideal)) (b : Fin 8) (i w : Fin 256) (c : Fin 64) :
    ed x (ix4 b i w c) = x (ix4 b (⟨2 * i.val + 1, by omega⟩ : Fin 512) (⟨2 * w.val + 1, by omega⟩ : Fin 512) c) :=
  Haar.array_entry x ![0, 0, 1, 0, 1, 0] 1 1 rfl _ _ _ b i w c

/-- The result at batch `b`, row `i`, column `w`, output channel `4c + q`. -/
theorem val_apply (x : (⟨S8x512x512x64, .f32⟩ : BufTy).Contents (Elt Ideal)) (b : Fin 8) (i w : Fin 256) (c : Fin 64) (q : Fin 4) :
    val_main_v34 (F := Ideal) x (ix4 b i w (⟨4 * c.val + q.val, by omega⟩ : Fin 256)) = Haar.ofArrayAt x b i w c q := by
  rw [val_eq]
  refine (Haar.array_stack (comp x) ![0, 1, 2, 3] rfl bcast_S8x256x256x64_S8x256x256x64x1_0_1_2_3
    concatenates_S8x256x256x64x1_S8x256x256x64x1_S8x256x256x64x1_S8x256x256x64x1_S8x256x256x64x4_d4
    shapeCasts_S8x256x256x64x4_S8x256x256x256 b i w c q).trans ?_
  rw [comp_eq]
  show Haar.comb q (ea x (ix4 b i w c)) (eb x (ix4 b i w c)) (ec x (ix4 b i w c)) (ed x (ix4 b i w c)) = _
  rw [ea_apply, eb_apply, ec_apply, ed_apply]
  rfl

/-- THE REFERENCE'S RESULT is the transform of its argument. -/
theorem val_is_transform (x : (⟨S8x512x512x64, .f32⟩ : BufTy).Contents (Elt Ideal)) :
    val_main_v34 (F := Ideal) x = Haar.ofArray x := by
  funext j
  have h0 : (j 0).val < 8 := (j 0).isLt
  have h1 : (j 1).val < 256 := (j 1).isLt
  have h2 : (j 2).val < 256 := (j 2).isLt
  have h3 : (j 3).val < 256 := (j 3).isLt
  have ej : j = ix4 (⟨(j 0).val, h0⟩ : Fin 8) (⟨(j 1).val, h1⟩ : Fin 256) (⟨(j 2).val, h2⟩ : Fin 256)
      (⟨4 * (⟨(j 3).val / 4, by omega⟩ : Fin 64).val + (⟨(j 3).val % 4, by omega⟩ : Fin 4).val, by show 4 * ((j 3).val / 4) + (j 3).val % 4 < 256; omega⟩ : Fin 256) := by
    funext a; apply Fin.ext
    match a with
    | ⟨0, _⟩ => rfl
    | ⟨1, _⟩ => rfl
    | ⟨2, _⟩ => rfl
    | ⟨3, _⟩ => show (j 3).val = 4 * ((j 3).val / 4) + (j 3).val % 4; omega
  rw [ej]
  refine (val_apply x _ _ _ _ _).trans ?_
  unfold Haar.ofArray
  refine Haar.ofArrayAt_congr x rfl rfl rfl ?_ ?_
  · show (j 3).val / 4 = (4 * ((j 3).val / 4) + (j 3).val % 4) / 4; omega
  · show (j 3).val % 4 = (4 * ((j 3).val / 4) + (j 3).val % 4) % 4; omega

end Cert.ReferenceIdeal.RefValue

end
-- ==== Proof.lean ====
/-
  The kernel and its reference compute one function: the 2x2 Haar transform of an [8, 512, 512, 64] array.

  For every channel, every 2x2 block  a b / c d  of rows 2i, 2i + 1 and columns 2w, 2w + 1 gives four numbers,
      1/2 (a + b + c + d),   1/2 (a + b - c - d),   1/2 (a - b + c - d),   1/2 (a - b - c + d),
  stored at output position (i, w) in output channels 4c, 4c + 1, 4c + 2, 4c + 3 (`Haar.ofArray`, HaarSpec.lean).
  Both programs form each of the four with the same additions and subtractions in the same order and the same
  constant one half, so on the extended reals the two results agree term by term: no sum is re-associated, nothing is
  cancelled or distributed, and the finiteness of the input is never used. What differs is only how the entries are
  reached and where the results are put:
    * the reference works on the whole array at once (RefValue.lean);
    * the kernel works tile by tile over a grid of 8 x 8 x 4 points, and inside a tile row by row in a loop of 32
      trips, each trip transforming two input rows into one output row (KernelRows.lean: one trip; KernelBlock.lean:
      the 32 rows of a tile; KernelArray.lean: the 256 tiles of the array; HaarTiles.lean: a tile's transform is a
      tile of the array's transform; HaarLayout.lean: the reshapes, cuts and joins read at an index).
  The three frame claims are the generated frame runs; the idealization rewrote nothing, so `preserves` is `True`.
-/
import proofs.«170310_j33887291965641_2_alg».proof.Defs
import proofs.«170310_j33887291965641_2_alg».proof.Proof.Gen.Kernel
import proofs.«170310_j33887291965641_2_alg».proof.Proof.Gen.Kernel.Skeleton
import proofs.«170310_j33887291965641_2_alg».proof.Proof.Gen.Kernel.Loops
import proofs.«170310_j33887291965641_2_alg».proof.Proof.Gen.Kernel.Launch
import proofs.«170310_j33887291965641_2_alg».proof.Proof.Gen.Kernel.Points
import proofs.«170310_j33887291965641_2_alg».proof.Proof.Gen.Kernel.Frame
import proofs.«170310_j33887291965641_2_alg».proof.Proof.Gen.KernelIdeal
import proofs.«170310_j33887291965641_2_alg».proof.Proof.Gen.KernelIdeal.Skeleton
import proofs.«170310_j33887291965641_2_alg».proof.Proof.Gen.KernelIdeal.Loops
import proofs.«170310_j33887291965641_2_alg».proof.Proof.Gen.KernelIdeal.Launch
import proofs.«170310_j33887291965641_2_alg».proof.Proof.Gen.KernelIdeal.Points
import proofs.«170310_j33887291965641_2_alg».proof.Proof.Gen.KernelIdeal.Frame
import proofs.«170310_j33887291965641_2_alg».proof.Proof.Gen.ReferenceIdeal
import proofs.«170310_j33887291965641_2_alg».proof.Proof.Gen.Pre_finite_inputs
import proofs.«170310_j33887291965641_2_alg».proof.Proof.Gen.KernelIdeal.Value
import proofs.«170310_j33887291965641_2_alg».proof.Proof.Gen.ReferenceIdeal.Run
import proofs.«170310_j33887291965641_2_alg».proof.Proof.Gen.ReferenceIdeal.Read
import proofs.«170310_j33887291965641_2_alg».proof.Proof.KernelArray
import proofs.«170310_j33887291965641_2_alg».proof.Proof.RefValue

noncomputable section

namespace Cert.Proof

open Idealize.ShloMosaic Idealize.ShloMosaic.TcCoe Idealize.SL.Sem

/-- The kernel as printed runs to the end and leaves its argument as it was. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- On the extended reals both programs end with the transform of the argument: the kernel tile by tile
    (`Cert.KernelIdeal.Array.run`), the reference at once (`Cert.ReferenceIdeal.RefValue.val_is_transform`), from
    arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.ReferenceIdeal.RefValue.val_is_transform, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
